-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel

variable [Facts]

def fn_part1 {F : FTy → Type} [FloatOps F] (main_arg4 : FVec F S16x1024x1024 .f32) (main_arg5 : FVec F S16x1024x1024 .f32) (main_v13 : IVec S_ 1) (main_v16 : IVec S16x1024x1024 1) : IVec S_ 1 :=
  let main_c_5 : IVec S_ 1 := constantI S_ 1 1#1
  let main_v17 : IVec S_ 1 := (fun x v => Host.reduce IntOp.andi x v reducesTo_S16x1024x1024_S_d0_1_2 h_S_) main_v16 main_c_5
  let main_v18 : IVec S_ 1 := andi main_v13 main_v17
  let main_v19 : FVec F S16x1024x1024 .f32 := Host.absf main_arg4
  let main_cst_6 : FVec F S_ .f32 := constant S_ .f32 0x7F800000#32
  let main_v20 : FVec F S16x1024x1024 .f32 := broadcastInDim S16x1024x1024 ![] bcast_S_S16x1024x1024 main_cst_6
  let main_v21 : IVec S16x1024x1024 1 := cmpf .olt main_v19 main_v20
  let main_c_7 : IVec S_ 1 := constantI S_ 1 1#1
  let main_v22 : IVec S_ 1 := (fun x v => Host.reduce IntOp.andi x v reducesTo_S16x1024x1024_S_d0_1_2 h_S_) main_v21 main_c_7
  let main_v23 : IVec S_ 1 := andi main_v18 main_v22
  let main_v24 : FVec F S16x1024x1024 .f32 := Host.absf main_arg5
  let main_cst_8 : FVec F S_ .f32 := constant S_ .f32 0x7F800000#32
  let main_v25 : FVec F S16x1024x1024 .f32 := broadcastInDim S16x1024x1024 ![] bcast_S_S16x1024x1024 main_cst_8
  let main_v26 : IVec S16x1024x1024 1 := cmpf .olt main_v24 main_v25
  let main_c_9 : IVec S_ 1 := constantI S_ 1 1#1
  let main_v27 : IVec S_ 1 := (fun x v => Host.reduce IntOp.andi x v reducesTo_S16x1024x1024_S_d0_1_2 h_S_) main_v26 main_c_9
  let main_v28 : IVec S_ 1 := andi main_v23 main_v27
  main_v28

def fn {F : FTy → Type} [FloatOps F] (main_arg0 : FVec F S16x1024x1024 .f32) (main_arg1 : FVec F S16x1024x1024 .f32) (main_arg2 : FVec F S16x1024x1024 .f32) (main_arg3 : FVec F S16x1024x1024 .f32) (main_arg4 : FVec F S16x1024x1024 .f32) (main_arg5 : FVec F S16x1024x1024 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S16x1024x1024 .f32 := Host.absf main_arg2
  let main_cst_2 : FVec F S_ .f32 := constant S_ .f32 0x7F800000#32
  let main_v10 : FVec F S16x1024x1024 .f32 := broadcastInDim S16x1024x1024 ![] bcast_S_S16x1024x1024 main_cst_2
  let main_v11 : IVec S16x1024x1024 1 := cmpf .olt main_v9 main_v10
  let main_c_3 : IVec S_ 1 := constantI S_ 1 1#1
  let main_v12 : IVec S_ 1 := (fun x v => Host.reduce IntOp.andi x v reducesTo_S16x1024x1024_S_d0_1_2 h_S_) main_v11 main_c_3
  let main_v13 : IVec S_ 1 := andi main_v8 main_v12
  let main_v14 : FVec F S16x1024x1024 .f32 := Host.absf main_arg3
  let main_cst_4 : FVec F S_ .f32 := constant S_ .f32 0x7F800000#32
  let main_v15 : FVec F S16x1024x1024 .f32 := broadcastInDim S16x1024x1024 ![] bcast_S_S16x1024x1024 main_cst_4
  let main_v16 : IVec S16x1024x1024 1 := cmpf .olt main_v14 main_v15
  fn_part1 (F := F) main_arg4 main_arg5 main_v13 main_v16
-- ==== Kernel.lean ====
abbrev S16x1024x1024 : Shape := ⟨3, ![16, 1024, 1024]⟩
abbrev S1x256x1024 : Shape := ⟨3, ![1, 256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S16x1024x1024, .f32⟩
  | .hbm, ⟨3, _⟩ => ⟨S16x1024x1024, .f32⟩
  | .hbm, ⟨4, _⟩ => ⟨S16x1024x1024, .f32⟩
  | .hbm, ⟨5, _⟩ => ⟨S16x1024x1024, .f32⟩
  | .hbm, ⟨6, _⟩ => ⟨S16x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  inb_S1x256x1024_S1x256x1024_0_0_0 : ∀ a, (![0, 0, 0] : Fin 3 → Nat) a + S1x256x1024.size a ≤ S1x256x1024.size a
  h_S1x256x1024 : 0 < S1x256x1024.numel
  natLt_1_32 : 1 < 32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S16x1024x1024.size a
  hwx0_0 : ∀ i : grid0.Coords, EltTy.bits .f32 = 32 ∨ (Rect.block (s := S16x1024x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S16x1024x1024.size a
  hwx0_1 : ∀ i : grid0.Coords, EltTy.bits .f32 = 32 ∨ (Rect.block (s := S16x1024x1024) S1x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S16x1024x1024.size a
  hwx0_2 : ∀ i : grid0.Coords, EltTy.bits .f32 = 32 ∨ (Rect.block (s := S16x1024x1024) S1x256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S16x1024x1024.size a
  hwx0_3 : ∀ i : grid0.Coords, EltTy.bits .f32 = 32 ∨ (Rect.block (s := S16x1024x1024) S1x256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1024.size a ≤ S16x1024x1024.size a
  hwx0_4 : ∀ i : grid0.Coords, EltTy.bits .f32 = 32 ∨ (Rect.block (s := S16x1024x1024) S1x256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S16x1024x1024.size a
  hwx0_5 : ∀ i : grid0.Coords, EltTy.bits .f32 = 32 ∨ (Rect.block (s := S16x1024x1024) S1x256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x1024.size a ≤ S16x1024x1024.size a
  hwx0_6 : ∀ i : grid0.Coords, EltTy.bits .f32 = 32 ∨ (Rect.block (s := S16x1024x1024) S1x256x1024.size (cc0_transform_6 i) (hinb0_6 i)).WholeWords (EltTy.packing .f32)

variable [Facts₀]

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x256x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x1024x1024 : Shape := ⟨3, ![16, 1024, 1024]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S16x1024x1024, .f32⟩
  | .hbm, ⟨3, _⟩ => ⟨S16x1024x1024, .f32⟩
  | .hbm, ⟨4, _⟩ => ⟨S16x1024x1024, .f32⟩
  | .hbm, ⟨5, _⟩ => ⟨S16x1024x1024, .f32⟩
  | .hbm, ⟨6, _⟩ => ⟨S_, .f32⟩
  | .hbm, ⟨7, _⟩ => ⟨S16x1024x1024, .f32⟩
  | .hbm, ⟨8, _⟩ => ⟨S16x1024x1024, .f32⟩
  | .hbm, ⟨9, _⟩ => ⟨S_, .i1⟩
  | .hbm, ⟨10, _⟩ => ⟨S16x1024x1024, .f32⟩
  | .hbm, ⟨11, _⟩ => ⟨S_, .f32⟩
  | .hbm, ⟨12, _⟩ => ⟨S16x1024x1024, .f32⟩
  | .hbm, ⟨13, _⟩ => ⟨S16x1024x1024, .f32⟩
  | .hbm, ⟨14, _⟩ => ⟨S_, .i1⟩
  | .hbm, ⟨15, _⟩ => ⟨S16x1024x1024, .f32⟩
  | .hbm, ⟨16, _⟩ => ⟨S_, .f32⟩
  | .hbm, ⟨17, _⟩ => ⟨S16x1024x1024, .f32⟩
  | .hbm, ⟨18, _⟩ => ⟨S16x1024x1024, .f32⟩
  | .hbm, ⟨19, _⟩ => ⟨S16x1024x1024, .f32⟩
  | .hbm, ⟨20, _⟩ => ⟨S_, .f32⟩
  | .hbm, ⟨21, _⟩ => ⟨S16x1024x1024, .f32⟩
  | .hbm, ⟨22, _⟩ => ⟨S16x1024x1024, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S16x1024x1024, .f32⟩
  | .hbm, ⟨27, _⟩ => ⟨S16x1024x1024, .f32⟩
  | .hbm, ⟨28, _⟩ => ⟨S_, .f32⟩
  | .hbm, ⟨29, _⟩ => ⟨S16x1024x1024, .f32⟩
  | .hbm, ⟨30, _⟩ => ⟨S16x1024x1024, .f32⟩
  | .hbm, ⟨31, _⟩ => ⟨S_, .f32⟩
  | .hbm, ⟨32, _⟩ => ⟨S16x1024x1024, .f32⟩
  | .hbm, ⟨33, _⟩ => ⟨S16x1024x1024, .i1⟩
  | .hbm, ⟨34, _⟩ => ⟨S16x1024x1024, .f32⟩
  | .hbm, ⟨35, _⟩ => ⟨S_, .f32⟩
  | .hbm, ⟨36, _⟩ => ⟨S16x1024x1024, .f32⟩
  | .hbm, ⟨37, _⟩ => ⟨S16x1024x1024, .f32⟩
  | .hbm, ⟨38, _⟩ => ⟨S16x1024x1024, .f32⟩
  | .hbm, ⟨39, _⟩ => ⟨S_, .f32⟩
  | .hbm, ⟨40, _⟩ => ⟨S16x1024x1024, .f32⟩
  | .hbm, ⟨41, _⟩ => ⟨S16x1024x1024, .f32⟩
  | .hbm, ⟨42, _⟩ => ⟨S16x1024x1024, .f32⟩
  | .hbm, ⟨43, _⟩ => ⟨S16x1024x1024, .f32⟩
  | .hbm, ⟨44, _⟩ => ⟨S_, .f32⟩
  | .hbm, ⟨45, _⟩ => ⟨S16x1024x1024, .f32⟩
  | .hbm, ⟨46, _⟩ => ⟨S16x1024x1024, .f32⟩
  | .hbm, ⟨47, _⟩ => ⟨S16x1024x1024, .f32⟩
  | .hbm, ⟨48, _⟩ => ⟨S_, .f32⟩
  | .hbm, ⟨49, _⟩ => ⟨S16x1024x1024, .f32⟩
  | .hbm, ⟨50, _⟩ => ⟨S16x1024x1024, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S16x1024x1024, .f32⟩
  | .hbm, ⟨55, _⟩ => ⟨S16x1024x1024, .f32⟩
  | .hbm, ⟨56, _⟩ => ⟨S_, .f32⟩
  | .hbm, ⟨57, _⟩ => ⟨S16x1024x1024, .f32⟩
  | .hbm, ⟨58, _⟩ => ⟨S16x1024x1024, .f32⟩
  | .hbm, ⟨59, _⟩ => ⟨S_, .f32⟩
  | .hbm, ⟨60, _⟩ => ⟨S16x1024x1024, .f32⟩
  | .hbm, ⟨61, _⟩ => ⟨S16x1024x1024, .i1⟩
  | .hbm, ⟨62, _⟩ => ⟨S16x1024x1024, .f32⟩
  | .hbm, ⟨63, _⟩ => ⟨S_, .f32⟩
  | .hbm, ⟨64, _⟩ => ⟨S16x1024x1024, .f32⟩
  | .hbm, ⟨65, _⟩ => ⟨S16x1024x1024, .f32⟩
  | .hbm, ⟨66, _⟩ => ⟨S16x1024x1024, .f32⟩
  | .hbm, ⟨67, _⟩ => ⟨S_, .f32⟩
  | .hbm, ⟨68, _⟩ => ⟨S16x1024x1024, .f32⟩
  | .hbm, ⟨69, _⟩ => ⟨S16x1024x1024, .f32⟩
  | .hbm, ⟨70, _⟩ => ⟨S16x1024x1024, .f32⟩
  | .hbm, ⟨71, _⟩ => ⟨S16x1024x1024, .f32⟩
  | .hbm, ⟨72, _⟩ => ⟨S_, .i1⟩
  | .hbm, ⟨73, _⟩ => ⟨S16x1024x1024, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_cst_5 : Ref sig .tc := ⟨.hbm, 24, rfl⟩
abbrev main_call2_v0 : Ref sig .tc := ⟨.hbm, 25, rfl⟩
abbrev main_call2_v1 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_v11 : Ref sig .tc := ⟨.hbm, 30, rfl⟩
abbrev main_cst_6 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_7 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_8 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_9 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_10 : Ref sig .tc := ⟨.hbm, 48, rfl⟩
abbrev main_v25 : Ref sig .tc := ⟨.hbm, 49, rfl⟩
abbrev main_v26 : Ref sig .tc := ⟨.hbm, 50, rfl⟩
abbrev main_cst_11 : Ref sig .tc := ⟨.hbm, 51, rfl⟩
abbrev main_cst_12 : Ref sig .tc := ⟨.hbm, 52, rfl⟩
abbrev main_call3_v0 : Ref sig .tc := ⟨.hbm, 53, rfl⟩
abbrev main_call3_v1 : Ref sig .tc := ⟨.hbm, 54, rfl⟩
abbrev main_call3_v2 : Ref sig .tc := ⟨.hbm, 55, rfl⟩
abbrev main_call3_v3 : Ref sig .tc := ⟨.hbm, 56, rfl⟩
abbrev main_call3_v4 : Ref sig .tc := ⟨.hbm, 57, rfl⟩
abbrev main_v27 : Ref sig .tc := ⟨.hbm, 58, rfl⟩
abbrev main_cst_13 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_14 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_15 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_c_16 : Ref sig .tc := ⟨.hbm, 72, rfl⟩
abbrev main_v38 : Ref sig .tc := ⟨.hbm, 73, rfl⟩

abbrev nD : Nat := 1
abbrev τ : Topo := Topo.v7x

variable {F : FTy → Type} [FloatOps F]

class Facts₀ : Prop where
  bcast_S_S16x1024x1024 : S_.BroadcastsInDim S16x1024x1024 (![] : Fin 0 → Fin S16x1024x1024.rank)

variable [Facts₀]

class Facts : Prop extends Facts₀ where

variable [Facts]
-- ==== Proof.AbsBit.lean ====
/-
  One bit cycle of the absolute-value unit on a stochastic bitstream, as a function of two extended reals: the
  incoming bit `x` and the saturating counter `cnt`.

  The counter moves to `clip (cnt + 2·x − 1, 0, 15)`; the output is the COMPLEMENT `1 − x` of the bit while the
  moved counter is below the half `8` (the negative region) and the bit `x` itself otherwise, written as the
  blend `s·(1 − x) + (1 − s)·x` with `s ∈ {0, 1}` the comparison's one-bit answer read as a number.

  Both programs compute exactly this blend of the first bit plane and the first counter, one array index at a
  time (the selecting multiplexers are driven by a constant `true`, so the other planes never reach the result).
  The float literals stay the words the programs print — the same word stands on both sides and is never
  evaluated.
-/
import Idealize.ShloMosaic.PureOps.Ideal

noncomputable section

namespace Cert.AbsBit

open Idealize.ShloMosaic

/-- The counter after one cycle: `min 15 (max 0 (cnt + 2·x − 1))`. -/
def counter (x cnt : EReal) : EReal :=
  min (Ideal.ofBits .f32 0x41700000#32)
    (max (Ideal.ofBits .f32 0x00000000#32)
      (cnt + Ideal.ofBits .f32 0x40000000#32 * x - Ideal.ofBits .f32 0x3F800000#32))

/-- The one-bit answer of "the moved counter is below 8". -/
def below (x cnt : EReal) : BitVec 1 :=
  Ideal.cmp .olt (counter x cnt) (Ideal.ofBits .f32 0x41000000#32)

/-- That bit as a number, `0` or `1`. -/
def sign (x cnt : EReal) : EReal := ((below x cnt).toNat : ℝ)

/-- The emitted bit: `s·(1 − x) + (1 − s)·x`. -/
def out (x cnt : EReal) : EReal :=
  sign x cnt * (Ideal.ofBits .f32 0x3F800000#32 - x) + (Ideal.ofBits .f32 0x3F800000#32 - sign x cnt) * x

/-- The whole result array over any index type: the emitted bit of the first plane and the first counter,
    index by index. -/
def G {ι : Type} (plane cnt : ι → EReal) : ι → EReal := fun i => out (plane i) (cnt i)

/-- A one-bit word widened with zeros to 32 bits and read as a signed integer is the bit read as a natural
    number: both are `0` or `1`. -/
theorem toInt_setWidth_bit (b : BitVec 1) : (b.setWidth 32).toInt = (b.toNat : ℤ) := by
  rcases BitVec.eq_zero_or_eq_one b with rfl | rfl <;> rfl

/-- So the two spellings of "a one-bit word as a float" agree: widened and converted as signed, or converted
    as unsigned. -/
theorem signed_widened_eq_unsigned (b : BitVec 1) :
    (FloatOps.sitofp (F := Ideal) .f32 (b.setWidth 32) : EReal) = FloatOps.uitofp (F := Ideal) .f32 b := by
  show (((b.setWidth 32).toInt : ℝ) : EReal) = ((b.toNat : ℝ) : EReal)
  rw [toInt_setWidth_bit]; norm_cast

/-- A multiplexer whose select line is the constant `true` passes its first operand. -/
theorem select_true {α : Type} (a b : α) : Scalar.select 1#1 a b = a := if_pos rfl

end Cert.AbsBit

end
-- ==== Proof.KernelBlock.lean ====
/-
  What the kernel's body stores, read at one index of the block.

  The body loads the six blocks, and its one store writes a value built from them by pointwise operations only.
  The three multiplexers have the constant `true` on their select line, so the value is the blend
  `s·(1 − x) + (1 − s)·x` of the FIRST plane's block `x` with the bit `s` of "the moved FIRST counter is
  below 8"; the other four blocks are loaded and never reach the store. The kernel spells `s` as the one-bit
  comparison widened with zeros to 32 bits and converted as a signed integer, which is the bit itself.
-/
import proofs.«157156_j16166256902747_1_alg».proof.Proof.Gen.KernelIdeal.Skeleton
import proofs.«157156_j16166256902747_1_alg».proof.Proof.AbsBit

noncomputable section

namespace Cert.KernelIdeal.Block

open Cert.KernelIdeal Cert.KernelIdeal.Gen Idealize.ShloMosaic

/-- The stored value at index `j` of the block is the emitted bit of the first plane's and the first counter's
    entries at `j`. -/
theorem stored_apply (x0 x1 x2 x3 x4 x5 : Vec Ideal S1x256x1024 .f32) (j : S1x256x1024.Idx) :
    k0_pay1 (F := Ideal) x5 (k0_pay2 x0 x1) (k0_pay3 x2 x3) (k0_pay4 x0 x1 x4) (k0_pay5 x0 x1 x4) k0_pay6 j
      = Cert.AbsBit.out (x0 j) (x4 j) := by
  unfold k0_pay1 k0_pay5 k0_pay4 k0_pay6 k0_pay2
  simp only [Cert.AbsBit.select_true]
  show FloatOps.sitofp (F := Ideal) .f32 ((Cert.AbsBit.below (x0 j) (x4 j)).setWidth 32) * (Ideal.ofBits .f32 0x3F800000#32 - x0 j)
      + (Ideal.ofBits .f32 0x3F800000#32 - FloatOps.sitofp (F := Ideal) .f32 ((Cert.AbsBit.below (x0 j) (x4 j)).setWidth 32)) * x0 j = _
  rw [Cert.AbsBit.signed_widened_eq_unsigned]
  rfl

end Cert.KernelIdeal.Block

end
-- ==== Proof.KernelArray.lean ====
/-
  From the kernel's blocks to its whole result array.

  The grid has 16 × 4 points; at point `(b, r)` every one of the seven windows holds the block of its array
  with batch `b`, rows `256·r … 256·r + 255` and all 1024 columns. So the entry of the first plane's (or the first
  counter's) block at a place inside the block IS the entry of the whole array at the place the OUTPUT's block
  puts there, and what the point writes back is the block of ONE array — the emitted bits of the first plane
  and the first counter, index by index. The 64 blocks tile the 16 × 1024 × 1024 array (the block that holds
  index `(b, y, x)` is the one at point `(b, y / 256)`), so the result array after the run is that array.
-/
import proofs.«157156_j16166256902747_1_alg».proof.Proof.Gen.KernelIdeal.Value
import proofs.«157156_j16166256902747_1_alg».proof.Proof.KernelBlock

noncomputable section

namespace Cert.KernelIdeal.Whole

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The body's one rectangle starts at the block's origin. -/
theorem origin_zero : (![0, 0, 0] : Fin 3 → Nat) = fun _ => 0 := funext fun a => by fin_cases a <;> rfl

/-- At every grid point the first plane's window and the first counter's window sit on the same block index
    as the output's window, axis by axis, and the output's block index stays inside 16 × 4 × 1. -/
theorem same_block : ∀ t : Fin cfg0.N,
    win0_0.index t (0 : Fin 3) = win0_6.index t (0 : Fin 3)
    ∧ win0_0.index t (1 : Fin 3) = win0_6.index t (1 : Fin 3)
    ∧ win0_0.index t (2 : Fin 3) = win0_6.index t (2 : Fin 3)
    ∧ win0_4.index t (0 : Fin 3) = win0_6.index t (0 : Fin 3)
    ∧ win0_4.index t (1 : Fin 3) = win0_6.index t (1 : Fin 3)
    ∧ win0_4.index t (2 : Fin 3) = win0_6.index t (2 : Fin 3)
    ∧ win0_6.index t (0 : Fin 3) ≤ 15 ∧ win0_6.index t (1 : Fin 3) ≤ 3 ∧ win0_6.index t (2 : Fin 3) ≤ 0 :=
  (by decide +kernel : ∀ t : Fin grid0.N, _)

/-- Every block index `(b, r, 0)` with `b < 16`, `r < 4` is some grid point's. -/
theorem every_block : ∀ (b : Fin 16) (r : Fin 4), ∃ t : Fin cfg0.N, win0_6.index t = ![b.val, r.val, 0] :=
  (by decide +kernel : ∀ (b : Fin 16) (r : Fin 4), ∃ t : Fin grid0.N, win0_6.index t = ![b.val, r.val, 0])

/-- What point `t` writes back is block `t` of the array of emitted bits of the first plane and the first
    counter, as the region finds those two arrays. -/
theorem written_eq (c : Dev nD) (t : Fin cfg0.N) :
    (dats m 0 c).flushed 6 t
      = ((cfg0.win 6).blk t).view.read (Elt Ideal) (Cert.AbsBit.G (V m c main_arg0) (V m c main_arg4)) := by
  show (cfg0.win 6).cut (grid0.coords t) ((dats m 0 c).after 6 t) = _
  rw [after0_6]
  unfold out0_6
  rw [View.canon_unit_zero origin_zero]
  simp only [View.ld_unit_zero (S := S1x256x1024) origin_zero]
  obtain ⟨e0, e1, e2, e3, e4, e5, -, -, -⟩ := same_block t
  funext j
  refine (Cert.KernelIdeal.Block.stored_apply (iblk m c 0 t) (iblk m c 1 t) (iblk m c 2 t) (iblk m c 3 t) (iblk m c 4 t) (iblk m c 5 t) j).trans ?_
  show Cert.AbsBit.out (V m c main_arg0 (((cfg0.win 0).blk t).view.emb j)) (V m c main_arg4 (((cfg0.win 4).blk t).view.emb j))
      = Cert.AbsBit.out (V m c main_arg0 (((cfg0.win 6).blk t).view.emb j)) (V m c main_arg4 (((cfg0.win 6).blk t).view.emb j))
  have h0 : ((cfg0.win 0).blk t).view.emb j = ((cfg0.win 6).blk t).view.emb j := by
    funext a; apply Fin.ext
    match a with
    | ⟨0, _⟩ => show win0_0.index t (0 : Fin 3) * 1 + 1 * (j 0).val = win0_6.index t (0 : Fin 3) * 1 + 1 * (j 0).val; omega
    | ⟨1, _⟩ => show win0_0.index t (1 : Fin 3) * 256 + 1 * (j 1).val = win0_6.index t (1 : Fin 3) * 256 + 1 * (j 1).val; omega
    | ⟨2, _⟩ => show win0_0.index t (2 : Fin 3) * 1024 + 1 * (j 2).val = win0_6.index t (2 : Fin 3) * 1024 + 1 * (j 2).val; omega
  have h4 : ((cfg0.win 4).blk t).view.emb j = ((cfg0.win 6).blk t).view.emb j := by
    funext a; apply Fin.ext
    match a with
    | ⟨0, _⟩ => show win0_4.index t (0 : Fin 3) * 1 + 1 * (j 0).val = win0_6.index t (0 : Fin 3) * 1 + 1 * (j 0).val; omega
    | ⟨1, _⟩ => show win0_4.index t (1 : Fin 3) * 256 + 1 * (j 1).val = win0_6.index t (1 : Fin 3) * 256 + 1 * (j 1).val; omega
    | ⟨2, _⟩ => show win0_4.index t (2 : Fin 3) * 1024 + 1 * (j 2).val = win0_6.index t (2 : Fin 3) * 1024 + 1 * (j 2).val; omega
  rw [h0, h4]

/-- An index of the array lies in point `t`'s block iff each coordinate lies in the block's range on its axis. -/
theorem mem_block (t : Fin cfg0.N) (i : S16x1024x1024.Idx) :
    i ∈ ((cfg0.win 6).blk t).view.set ↔ ∀ a : Fin 3, win0_6.index t a * S1x256x1024.size a ≤ (i a).val ∧ (i a).val < win0_6.index t a * S1x256x1024.size a + S1x256x1024.size a := by
  show i ∈ ((View.whole main_v0).slice (win0_6.rect t)).set ↔ _
  rw [View.set_slice_whole, Rect.mem_set_unit]
  exact Iff.rfl

/-- The blocks tile the array: index `(b, y, x)` lies in the block of the point with block index `(b, y / 256, 0)`. -/
theorem tiled (i : S16x1024x1024.Idx) :
    ∃ t : Fin cfg0.N, (cfg0.win 6).flush t = true ∧ i ∈ ((cfg0.win 6).blk t).view.set := by
  have hi0 : (i 0).val < 16 := (i 0).isLt
  have hi1 : (i 1).val < 1024 := (i 1).isLt
  have hi2 : (i 2).val < 1024 := (i 2).isLt
  obtain ⟨t, ht⟩ := every_block ⟨(i 0).val, hi0⟩ ⟨(i 1).val / 256, by omega⟩
  have q0 : win0_6.index t (0 : Fin 3) = (i 0).val := congrFun ht 0
  have q1 : win0_6.index t (1 : Fin 3) = (i 1).val / 256 := congrFun ht 1
  have q2 : win0_6.index t (2 : Fin 3) = 0 := congrFun ht 2
  refine ⟨t, flush0_6 t, ?_⟩
  rw [mem_block]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 256 ≤ (i 1).val ∧ (i 1).val < win0_6.index t (1 : Fin 3) * 256 + 256; omega
  | ⟨2, _⟩ => show win0_6.index t (2 : Fin 3) * 1024 ≤ (i 2).val ∧ (i 2).val < win0_6.index t (2 : Fin 3) * 1024 + 1024; omega

/-- The result array after the run is the array of emitted bits of the first plane and the first counter as
    launched. -/
theorem result_array (c : Dev nD) :
    (dats m 0 c).arrAt 6 cfg0.N
      = Cert.AbsBit.G (m ((c : Thread nD τ).loc main_arg0)) (m ((c : Thread nD τ).loc main_arg4)) :=
  (dats m 0 c).arrAt_eq_of_cover 6 (Cert.AbsBit.G (V m c main_arg0) (V m c main_arg4)) (fun t _ => written_eq m c t) tiled

/-- The kernel's run with its result named: every weakly fair execution ends with the result array at the
    emitted bits of the launch contents of the first plane and the first counter, all six arguments unchanged. -/
theorem run : θ_run defs (onTc (τ := τ) (main (F := Ideal))) ⟨m, fun _ => 0, ρ⟩ fun r => ∀ c : Dev nD,
      r.2.mem ((c : Thread nD τ).loc main_v0)
        = Cert.AbsBit.G (m ((c : Thread nD τ).loc main_arg0)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (result_array m c), (h c).2⟩)
    (Cert.KernelIdeal.Value.run_blocks m ρ)

end Cert.KernelIdeal.Whole

end
-- ==== Proof.ReferenceValue.lean ====
/-
  The reference's result, stage by stage, is the emitted bit of the first plane and the first counter.

  The reference's last operation is a multiplexer between the two absolute-value units' outputs, its select
  line a constant `true` broadcast to the array: at every index it passes the first unit's output. That
  output is the blend `s·(1 − g) + (1 − s)·g`, where `g` — again a multiplexer on a constant `true` — is the
  first plane itself, and `s` is the comparison "clip (cnt + 2·g − 1, 0, 15) < 8" converted to a float as an
  unsigned one-bit integer. Every operation on the way acts on each index by itself, and a scalar broadcast
  to the array reads as the scalar at every index.
-/
import proofs.«157156_j16166256902747_1_alg».proof.Proof.Gen.ReferenceIdeal.Read
import proofs.«157156_j16166256902747_1_alg».proof.Proof.AbsBit

noncomputable section

namespace Cert.ReferenceIdeal.RefValue

open Cert.ReferenceIdeal Cert.ReferenceIdeal.Gen Cert.ReferenceIdeal.Read Idealize.ShloMosaic

/-- The first multiplexer passes the first plane: its select line is `true` at every index. -/
theorem mux_first (x0 x1 : (⟨S16x1024x1024, .f32⟩ : BufTy).Contents (Elt Ideal)) :
    val_main_v2 (F := Ideal) x0 x1 = x0 := by
  funext i
  show Scalar.select 1#1 (x0 i) (val_main_v1 (F := Ideal) x1 i) = x0 i
  exact Cert.AbsBit.select_true _ _

/-- The first absolute-value unit's output at an index. -/
theorem unit_first_apply (x0 x1 x4 : (⟨S16x1024x1024, .f32⟩ : BufTy).Contents (Elt Ideal)) (i : S16x1024x1024.Idx) :
    val_main_v21 (F := Ideal) x0 x1 x4 i = Cert.AbsBit.out (x0 i) (x4 i) := by
  unfold val_main_v21 val_main_v17 val_main_v20 val_main_v19 val_main_v16 val_main_v14 val_main_v13 val_main_v11
    val_main_call2_v2 val_main_v10 val_main_v8 val_main_v7
  rw [mux_first]
  rfl

/-- The reference's result is the array of emitted bits of the first plane and the first counter. -/
theorem result_eq (x0 x1 x2 x3 x4 x5 : (⟨S16x1024x1024, .f32⟩ : BufTy).Contents (Elt Ideal)) :
    val_main_v38 (F := Ideal) x0 x1 x2 x3 x4 x5 = Cert.AbsBit.G x0 x4 := by
  funext i
  show Scalar.select 1#1 (val_main_v21 (F := Ideal) x0 x1 x4 i) (val_main_v37 (F := Ideal) x2 x3 x5 i) = _
  rw [Cert.AbsBit.select_true, unit_first_apply]
  rfl

end Cert.ReferenceIdeal.RefValue

end
-- ==== Proof.lean ====
/-
  The certificate of the bitstream edge-detection cycle: a tiled kernel over six 16 × 1024 × 1024 arrays
  against its array-at-once reference, equal as extended reals.

  Both programs compute, index by index, one bit cycle of the absolute-value unit on the FIRST bit plane with
  the FIRST counter: the counter moves to `clip (cnt + 2·x − 1, 0, 15)`, and the emitted bit is
  `s·(1 − x) + (1 − s)·x` with `s` the 0/1 answer of "the moved counter is below 8" (Proof/AbsBit.lean). Every
  multiplexer in either program has a constant `true` on its select line, so the second unit's output and four
  of the six inputs never reach the result. The two programs differ only in spelling — the kernel works block
  by block (Proof/KernelBlock.lean, Proof/KernelArray.lean: the 64 blocks tile the array) and converts the
  comparison bit to a float through a widening and a signed conversion, the reference works on whole arrays and
  converts it unsigned (Proof/ReferenceValue.lean) — and the same operations in the same order give the same
  extended real, so no law of arithmetic and no finiteness of the inputs is used.

  The three frames are the generated ones (the reference's is its generated run with the result dropped); the
  idealization rewrote nothing, so `preserves` has nothing to state.
-/
import proofs.«157156_j16166256902747_1_alg».proof.Defs
import proofs.«157156_j16166256902747_1_alg».proof.Proof.Gen.Kernel
import proofs.«157156_j16166256902747_1_alg».proof.Proof.Gen.Kernel.Skeleton
import proofs.«157156_j16166256902747_1_alg».proof.Proof.Gen.Kernel.Launch
import proofs.«157156_j16166256902747_1_alg».proof.Proof.Gen.Kernel.Points
import proofs.«157156_j16166256902747_1_alg».proof.Proof.Gen.Kernel.Frame
import proofs.«157156_j16166256902747_1_alg».proof.Proof.Gen.KernelIdeal
import proofs.«157156_j16166256902747_1_alg».proof.Proof.Gen.KernelIdeal.Skeleton
import proofs.«157156_j16166256902747_1_alg».proof.Proof.Gen.KernelIdeal.Launch
import proofs.«157156_j16166256902747_1_alg».proof.Proof.Gen.KernelIdeal.Points
import proofs.«157156_j16166256902747_1_alg».proof.Proof.Gen.KernelIdeal.Frame
import proofs.«157156_j16166256902747_1_alg».proof.Proof.Gen.ReferenceIdeal
import proofs.«157156_j16166256902747_1_alg».proof.Proof.Gen.KernelIdeal.Value
import proofs.«157156_j16166256902747_1_alg».proof.Proof.Gen.ReferenceIdeal.Run
import proofs.«157156_j16166256902747_1_alg».proof.Proof.Gen.ReferenceIdeal.Read
import proofs.«157156_j16166256902747_1_alg».proof.Proof.Gen.Pre_finite_inputs
import proofs.«157156_j16166256902747_1_alg».proof.Proof.KernelArray
import proofs.«157156_j16166256902747_1_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel runs, and leaves its arguments as launched. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- And the idealized reference: its run, the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the six arguments, the kernel's result array and the reference's are both the
    array of emitted bits of the first plane and the first counter. -/
theorem algebraic : Cert.algebraic_KernelIdeal_ReferenceIdeal := by
  intro m ρ m' ρ' _ hagree
  refine ⟨fun c => Cert.AbsBit.G (m ((c : Thread Cert.KernelIdeal.nD Cert.KernelIdeal.τ).loc Cert.KernelIdeal.main_arg0))
      (m ((c : Thread Cert.KernelIdeal.nD Cert.KernelIdeal.τ).loc Cert.KernelIdeal.main_arg4)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, Cert.ReferenceIdeal.RefValue.result_eq, (hagree c).1, (hagree c).2.2.2.2.1]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
